-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S288x128 : Shape := ⟨2, ![288, 128]⟩
abbrev S128 : Shape := ⟨1, ![128]⟩
abbrev S256x128 : Shape := ⟨2, ![256, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x32 .f32) (main_arg2 : FVec F S288x128 .f32) (main_arg3 : FVec F S128 .f32) (main_arg4 : FVec F S256x128 .f32) (main_arg5 : FVec F S128 .f32) (main_arg6 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S288x128 .f32 := Host.absf main_arg2
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S800000x32 : Shape := ⟨2, ![800000, 32]⟩
abbrev S288x128 : Shape := ⟨2, ![288, 128]⟩
abbrev S128 : Shape := ⟨1, ![128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S8000x288 : Shape := ⟨2, ![8000, 288]⟩
abbrev S8000x128 : Shape := ⟨2, ![8000, 128]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩
abbrev S5000x256 : Shape := ⟨2, ![5000, 256]⟩
abbrev S5000x128 : Shape := ⟨2, ![5000, 128]⟩

abbrev nBuf : Space → Nat
  | .hbm => 55
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S288x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .bf16⟩
  | .hbm, ⟨31, _⟩ => ⟨S800000x32, .bf16⟩
  | .hbm, ⟨32, _⟩ => ⟨S800000x288, .bf16⟩
  | .hbm, ⟨33, _⟩ => ⟨S288x128, .bf16⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S50000x256, .f32⟩
  | .hbm, ⟨52, _⟩ => ⟨S50000x256, .bf16⟩
  | .hbm, ⟨53, _⟩ => ⟨S256x128, .bf16⟩
  | .hbm, ⟨54, _⟩ => ⟨S50000x128, .f32⟩
  | .local _ .vmem, ⟨0, _⟩ => ⟨S8000x288, .bf16⟩
  | .local _ .vmem, ⟨1, _⟩ => ⟨S8000x288, .bf16⟩
  | .local _ .vmem, ⟨2, _⟩ => ⟨S288x128, .bf16⟩
  | .local _ .vmem, ⟨3, _⟩ => ⟨S128, .f32⟩
  | .local _ .vmem, ⟨4, _⟩ => ⟨S8000x128, .f32⟩
  | .local _ .vmem, ⟨5, _⟩ => ⟨S8000x128, .f32⟩
  | .local _ .vmem, ⟨6, _⟩ => ⟨S5000x256, .bf16⟩
  | .local _ .vmem, ⟨7, _⟩ => ⟨S5000x256, .bf16⟩
  | .local _ .vmem, ⟨8, _⟩ => ⟨S256x128, .bf16⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  concatenates_S800000x128_S800000x128_S800000x32_S800000x288_d1 : Shape.Concatenates [S800000x128, S800000x128, S800000x32] S800000x288 1
  inb_S8000x288_S8000x288_0_0 : ∀ a, (![0, 0] : Fin 2 → Nat) a + S8000x288.size a ≤ S8000x288.size a
  h_S8000x288 : 0 < S8000x288.numel
  shapeCasts_S8000x288_S8000x288 : S8000x288.ShapeCasts S8000x288
  inb_S288x128_S288x128_0_0 : ∀ a, (![0, 0] : Fin 2 → Nat) a + S288x128.size a ≤ S288x128.size a
  h_S288x128 : 0 < S288x128.numel
  shapeCasts_S288x128_S288x128 : S288x128.ShapeCasts S288x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x128_S800000x1_S800000x128_1_0_n_n_0_1_1128_wf : GatherDims.WF S50000x128 S800000x1 S800000x128 [1] [0] [] [0] [] 1 ![1, 128]
  dot_S8000x288_S288x128_S8000x128_1_0_0_1_n_n_wf : DotDims.WF S8000x288 S288x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x288.size a ≤ S800000x288.size a
  hwx0_0 : ∀ i : grid0.Coords, EltTy.bits .bf16 = 32 ∨ (Rect.block (s := S800000x288) S8000x288.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x128.size a ≤ S288x128.size a
  hwx0_1 : ∀ i : grid0.Coords, EltTy.bits .bf16 = 32 ∨ (Rect.block (s := S288x128) S288x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S800000x128.size a
  hwx0_3 : ∀ i : grid0.Coords, EltTy.bits .f32 = 32 ∨ (Rect.block (s := S800000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x288_S288x128_S8000x128_1_0_0_1_n_n : DotDims S8000x288 S288x128 S8000x128 where
  lhsContracting := [1]
  rhsContracting := [0]
  lhsNonContracting := [0]
  rhsNonContracting := [1]
  lhsBatch := []
  rhsBatch := []
  wf := dot_S8000x288_S288x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v21) S8000x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S288x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S288x128 : Shape := ⟨2, ![288, 128]⟩
abbrev S128 : Shape := ⟨1, ![128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S288x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x288, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x256, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x288_d1 : Shape.Concatenates [S800000x128, S800000x128, S800000x32] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x288_S288x128_S800000x128_1_0_0_1_n_n_wf : DotDims.WF S800000x288 S288x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.BitsBody.lean ====
/-
  Both pallas regions of this program run one body: load a row block of a matrix `A`, the whole of a matrix `B` and a
  bias vector, and store `relu (A · B + bias)` over the whole output block. This module states, for each region and
  for any contents `V` the region may find in memory, what the body leaves in the output block as a function of the
  three input blocks, proves the body does so, and packs that as the data the pipeline's launch theorem asks for.
  Everything is generic in the float instance, so it reads at the word level and at the extended reals alike.
-/
import proofs.«143740_j81956565942353_1_alg».proof.Proof.Gen.Kernel.Launch
import proofs.«143740_j81956565942353_1_alg».proof.Proof.Gen.Kernel.Skeleton
import proofs.«143740_j81956565942353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row block of `relu (A · B + bias)`, at the entry contents `V` -/

/-- The block of window `w` that grid point `t` works on, cut out of the array the region finds in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `A` is in its staging buffer when the body starts at `t` (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole matrix `B` is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector likewise: fetched once, in place at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads each staging buffer whole and writes the output buffer whole. -/
abbrev r0_0 : Rect S8000x288 := Rect.unit (s := S8000x288) ![0, 0] S8000x288.size inb_S8000x288_S8000x288_0_0
abbrev r0_1 : Rect S288x128 := Rect.unit (s := S288x128) ![0, 0] S288x128.size inb_S288x128_S288x128_0_0
abbrev r0_2 : Rect S128 := Rect.unit (s := S128) ![0] S128.size inb_S128_S128_0
abbrev r0_3 : Rect S8000x128 := Rect.unit (s := S8000x128) ![0, 0] S8000x128.size inb_S8000x128_S8000x128_0_0

/-- What the body leaves in the output buffer, as a function of the three input blocks: its one store, whose
    value is the payload `relu (A · B + bias)` of the three loads. -/
def out0_3 (x0 : Vec F S8000x288 .bf16) (x1 : Vec F S288x128 .bf16) (x2 : Vec F S128 .f32) : Vec F S8000x128 .f32 :=
  View.canon [⟨r0_3, k0_pay1 (View.ld x0 r0_0) (View.ld x1 r0_1) (View.ld x2 r0_2)⟩]

/-- That one store covers the whole output buffer. -/
theorem cover0_3 (p0 : Vec F S8000x128 .f32) (y : S8000x128.Idx) :
    ∃ pc ∈ ([⟨r0_3, p0⟩] : List (View.Piece (Elt F) S8000x128 .f32)), y ∈ pc.1.set :=
  View.cover_of_tiled [⟨r0_3, p0⟩] S8000x128.size (by rfl) y

set_option maxHeartbeats 1000000 in
/-- The body's triple: started with the three input buffers holding `x0`, `x1`, `x2` and the output buffer holding
    anything, it ends with the inputs as they were and the output at `out0_3 x0 x1 x2`. -/
theorem sound_kernel0 (c : Dev nD) (E : Set ℕ) (i : grid0.Coords) (arg1 : Memref sig .tc .vmem S8000x288 .bf16) (harg1 : arg1.IsWhole) (arg2 : Memref sig .tc .vmem S288x128 .bf16) (harg2 : arg2.IsWhole) (arg3 : Memref sig .tc .vmem S128 .f32) (harg3 : arg3.IsWhole) (arg4 : Memref sig .tc .vmem S8000x128 .f32) (harg4 : arg4.IsWhole)
    (x0 : Vec F S8000x288 .bf16) (x1 : Vec F S288x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core `c`: its arrays as found in `V`; after the body at point `t` every input
    buffer still holds its block and the output buffer holds `out0_3` of the three blocks; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`: each window's current staging buffer at its contents before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what the body hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! # Region 1: a row block of `relu (A · B + bias)`, at the entry contents `V` -/

/-- The block of window `w` that grid point `t` works on, cut out of the array the region finds in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of `A` is in its staging buffer when the body starts at `t` (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole matrix `B` is in its staging buffer at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias vector likewise: fetched once, in place at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads each staging buffer whole and writes the output buffer whole. -/
abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S128 := Rect.unit (s := S128) ![0] S128.size inb_S128_S128_0
abbrev r1_3 : Rect S5000x128 := Rect.unit (s := S5000x128) ![0, 0] S5000x128.size inb_S5000x128_S5000x128_0_0

/-- What the body leaves in the output buffer, as a function of the three input blocks: its one store, whose
    value is the payload `relu (A · B + bias)` of the three loads. -/
def out1_3 (x0 : Vec F S5000x256 .bf16) (x1 : Vec F S256x128 .bf16) (x2 : Vec F S128 .f32) : Vec F S5000x128 .f32 :=
  View.canon [⟨r1_3, k1_pay1 (View.ld x0 r1_0) (View.ld x1 r1_1) (View.ld x2 r1_2)⟩]

/-- That one store covers the whole output buffer. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

set_option maxHeartbeats 1000000 in
/-- The body's triple: started with the three input buffers holding `x0`, `x1`, `x2` and the output buffer holding
    anything, it ends with the inputs as they were and the output at `out1_3 x0 x1 x2`. -/
theorem sound_kernel1 (c : Dev nD) (E : Set ℕ) (i : grid1.Coords) (arg1 : Memref sig .tc .vmem S5000x256 .bf16) (harg1 : arg1.IsWhole) (arg2 : Memref sig .tc .vmem S256x128 .bf16) (harg2 : arg2.IsWhole) (arg3 : Memref sig .tc .vmem S128 .f32) (harg3 : arg3.IsWhole) (arg4 : Memref sig .tc .vmem S5000x128 .f32) (harg4 : arg4.IsWhole)
    (x0 : Vec F S5000x256 .bf16) (x1 : Vec F S256x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: its arrays as found in `V`; after the body at point `t` every input
    buffer still holds its block and the output buffer holds `out1_3` of the three blocks; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline hands the body at point `t`: each window's current staging buffer at its contents before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what the body hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program: a stretch of host operations (the two row gathers, the concatenation), the first region
  (`relu (msg · W1 + b1)` row block by row block), a second stretch (the two scatter-adds, the quotient, the
  concatenation), and the second region (`relu (cat · W2 + b2)`). This module follows every unscoped buffer through
  those four items: `W0` is the launch memory, `W1` and `W3` apply a host stretch to what is before it, `W2` and
  `W4` replace a region's arrays by what its write-backs leave. The run theorem says every weakly fair execution
  terminates with each unscoped buffer at `W4`; a region changes nothing but its output array, so the seven
  arguments end as launched.
-/
import proofs.«143740_j81956565942353_1_alg».proof.Proof.BitsBody
import proofs.«143740_j81956565942353_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the five boundaries -/

/-- At launch. -/
abbrev W0 : Dev nD → Valuation τ sig (Elt F) := fun c b => m ((c : Dev nD), b)
/-- After the first host stretch: what region 0 finds. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch: what region 1 finds. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-! ## A region changes its output array only -/

/-- Region 0 leaves every buffer but its output `main_v23` as it found it: an input array is never written back. -/
theorem W2_keep (c : Dev nD) (b : Ref sig .tc) (hb : b ≠ main_v23) :
    W2 m c (Proc.devRef .tc b) = W1 m c (Proc.devRef .tc b) := by
  by_cases h : ∃ w, Pipeline.arrRef spec0 w = b
  · obtain ⟨w, rfl⟩ := h
    rw [W2_arr]
    match w, hb with
    | ⟨0, _⟩, _ => exact ((dat0 (V1 m) c).arrAt_in 0 rfl _).trans (A_eq0 (V1 m) c 0)
    | ⟨1, _⟩, _ => exact ((dat0 (V1 m) c).arrAt_in 1 rfl _).trans (A_eq0 (V1 m) c 1)
    | ⟨2, _⟩, _ => exact ((dat0 (V1 m) c).arrAt_in 2 rfl _).trans (A_eq0 (V1 m) c 2)
    | ⟨3, _⟩, hb => exact absurd rfl hb
  · exact W2_of_ne m c b fun w e => h ⟨w, e⟩

/-- Region 1 leaves every buffer but its output `main_v39` as it found it. -/
theorem W4_keep (c : Dev nD) (b : Ref sig .tc) (hb : b ≠ main_v39) :
    W4 m c (Proc.devRef .tc b) = W3 m c (Proc.devRef .tc b) := by
  by_cases h : ∃ w, Pipeline.arrRef spec1 w = b
  · obtain ⟨w, rfl⟩ := h
    rw [W4_arr]
    match w, hb with
    | ⟨0, _⟩, _ => exact ((dat1 (V3 m) c).arrAt_in 0 rfl _).trans (A_eq1 (V3 m) c 0)
    | ⟨1, _⟩, _ => exact ((dat1 (V3 m) c).arrAt_in 1 rfl _).trans (A_eq1 (V3 m) c 1)
    | ⟨2, _⟩, _ => exact ((dat1 (V3 m) c).arrAt_in 2 rfl _).trans (A_eq1 (V3 m) c 2)
    | ⟨3, _⟩, hb => exact absurd rfl hb
  · exact W4_of_ne m c b fun w e => h ⟨w, e⟩

/-- A buffer that no host operation writes and that is neither region's output ends as launched. -/
theorem W4_launch (c : Dev nD) (b : Ref sig .tc) (h0 : b ∉ hostOps0_W) (h1 : b ∉ hostOps1_W)
    (h23 : b ≠ main_v23) (h39 : b ≠ main_v39) : W4 m c (Proc.devRef .tc b) = m ((c : Thread nD τ).loc b) :=
  (W4_keep m c b h39).trans <| (StableHlo.after_of_writes_sub hostOps1 _ hostOps1_writes h1).trans <|
    (W2_keep m c b h23).trans <| (StableHlo.after_of_writes_sub hostOps0 _ hostOps0_writes h0).trans rfl

/-! ## The proof data of both pipelines, the thread state, the segments -/

/-- Each pipeline's proof data at the contents its region finds. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What a core carries beside its buffers through every item: its generator register at some state, and owing nothing. -/
abbrev R (c : Dev nD) : sProp 𝕄 := iprop((∃ r, prngReg c r) ∗ ∃ W, owes (c : Thread nD τ) (0 : CellTallies nD τ sig Unit) W)
/-- The last thread state, apart from the core owing nothing. -/
abbrev Tₙ (c : Dev nD) : sProp 𝕄 := iprop(StableHlo.held (c : Thread nD τ) (Pipeline.ucRefs τ sig) (W4 m c) ∗ ∃ r, prngReg c r)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Region 0 as a segment: entered with every unscoped buffer at `W1`, left with them at `W2`. At entry the
    region's four arrays are taken out of the unscoped buffers and the generator register goes into the body's
    invariant; at exit the arrays come back at what the write-backs left and the register comes out again. The
    kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Region 1 as a segment: entered with every unscoped buffer at `W3`, left with them at `W4`. At entry the
    region's four arrays are taken out of the unscoped buffers and the generator register goes into the body's
    invariant; at exit the arrays come back at what the write-backs left and the register comes out again. The
    kernel has no semaphore of its own and owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (fun w => (W4_arr m c w).symm)
      (fun b hb => W4_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) :=
  main_segs adm (pdats m) () 𝒱₀ L lv _ _ (reg0 m) (reg1 m) rfl rfl c

/-! ## The run -/

set_option backward.isDefEq.respectTransparency.types false in
/-- Every weakly fair execution of @main from memory `m` terminates, nothing faulting, and in every final state each
    unscoped buffer of each core holds `W4`. -/
theorem run_bufs (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h c => h c)

/-- An unscoped TensorCore reference is one of the buffers the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result array and the seven arguments read off: the result ends at what region 1's write-backs
    leave in `main_v39`, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v39) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v39 (by decide))).trans (W4_arr m c 3),
     (h c _ (mem_uc main_arg0 (by decide))).trans (W4_launch m c main_arg0 (by decide) (by decide) (by decide) (by decide)),
     (h c _ (mem_uc main_arg1 (by decide))).trans (W4_launch m c main_arg1 (by decide) (by decide) (by decide) (by decide)),
     (h c _ (mem_uc main_arg2 (by decide))).trans (W4_launch m c main_arg2 (by decide) (by decide) (by decide) (by decide)),
     (h c _ (mem_uc main_arg3 (by decide))).trans (W4_launch m c main_arg3 (by decide) (by decide) (by decide) (by decide)),
     (h c _ (mem_uc main_arg4 (by decide))).trans (W4_launch m c main_arg4 (by decide) (by decide) (by decide) (by decide)),
     (h c _ (mem_uc main_arg5 (by decide))).trans (W4_launch m c main_arg5 (by decide) (by decide) (by decide) (by decide)),
     (h c _ (mem_uc main_arg6 (by decide))).trans (W4_launch m c main_arg6 (by decide) (by decide) (by decide) (by decide))⟩)
    (run_bufs m ρ)

/-- The frame: the program runs to the end, nothing faulting, and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Hand

end
-- ==== Proof.IdealBody.lean ====
/-
  Both pallas regions of this program run one body: load a row block of a matrix `A`, the whole of a matrix `B` and a
  bias vector, and store `relu (A · B + bias)` over the whole output block. This module states, for each region and
  for any contents `V` the region may find in memory, what the body leaves in the output block as a function of the
  three input blocks, proves the body does so, and packs that as the data the pipeline's launch theorem asks for.
  Everything is generic in the float instance, so it reads at the word level and at the extended reals alike.
-/
import proofs.«143740_j81956565942353_1_alg».proof.Proof.Gen.KernelIdeal.Launch
import proofs.«143740_j81956565942353_1_alg».proof.Proof.Gen.KernelIdeal.Skeleton
import proofs.«143740_j81956565942353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row block of `relu (A · B + bias)`, at the entry contents `V` -/

/-- The block of window `w` that grid point `t` works on, cut out of the array the region finds in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `A` is in its staging buffer when the body starts at `t` (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole matrix `B` is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector likewise: fetched once, in place at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads each staging buffer whole and writes the output buffer whole. -/
abbrev r0_0 : Rect S8000x288 := Rect.unit (s := S8000x288) ![0, 0] S8000x288.size inb_S8000x288_S8000x288_0_0
abbrev r0_1 : Rect S288x128 := Rect.unit (s := S288x128) ![0, 0] S288x128.size inb_S288x128_S288x128_0_0
abbrev r0_2 : Rect S128 := Rect.unit (s := S128) ![0] S128.size inb_S128_S128_0
abbrev r0_3 : Rect S8000x128 := Rect.unit (s := S8000x128) ![0, 0] S8000x128.size inb_S8000x128_S8000x128_0_0

/-- What the body leaves in the output buffer, as a function of the three input blocks: its one store, whose
    value is the payload `relu (A · B + bias)` of the three loads. -/
def out0_3 (x0 : Vec F S8000x288 .bf16) (x1 : Vec F S288x128 .bf16) (x2 : Vec F S128 .f32) : Vec F S8000x128 .f32 :=
  View.canon [⟨r0_3, k0_pay1 (View.ld x0 r0_0) (View.ld x1 r0_1) (View.ld x2 r0_2)⟩]

/-- That one store covers the whole output buffer. -/
theorem cover0_3 (p0 : Vec F S8000x128 .f32) (y : S8000x128.Idx) :
    ∃ pc ∈ ([⟨r0_3, p0⟩] : List (View.Piece (Elt F) S8000x128 .f32)), y ∈ pc.1.set :=
  View.cover_of_tiled [⟨r0_3, p0⟩] S8000x128.size (by rfl) y

set_option maxHeartbeats 1000000 in
/-- The body's triple: started with the three input buffers holding `x0`, `x1`, `x2` and the output buffer holding
    anything, it ends with the inputs as they were and the output at `out0_3 x0 x1 x2`. -/
theorem sound_kernel0 (c : Dev nD) (E : Set ℕ) (i : grid0.Coords) (arg1 : Memref sig .tc .vmem S8000x288 .bf16) (harg1 : arg1.IsWhole) (arg2 : Memref sig .tc .vmem S288x128 .bf16) (harg2 : arg2.IsWhole) (arg3 : Memref sig .tc .vmem S128 .f32) (harg3 : arg3.IsWhole) (arg4 : Memref sig .tc .vmem S8000x128 .f32) (harg4 : arg4.IsWhole)
    (x0 : Vec F S8000x288 .bf16) (x1 : Vec F S288x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core `c`: its arrays as found in `V`; after the body at point `t` every input
    buffer still holds its block and the output buffer holds `out0_3` of the three blocks; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`: each window's current staging buffer at its contents before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what the body hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! # Region 1: a row block of `relu (A · B + bias)`, at the entry contents `V` -/

/-- The block of window `w` that grid point `t` works on, cut out of the array the region finds in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of `A` is in its staging buffer when the body starts at `t` (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole matrix `B` is in its staging buffer at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias vector likewise: fetched once, in place at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads each staging buffer whole and writes the output buffer whole. -/
abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S128 := Rect.unit (s := S128) ![0] S128.size inb_S128_S128_0
abbrev r1_3 : Rect S5000x128 := Rect.unit (s := S5000x128) ![0, 0] S5000x128.size inb_S5000x128_S5000x128_0_0

/-- What the body leaves in the output buffer, as a function of the three input blocks: its one store, whose
    value is the payload `relu (A · B + bias)` of the three loads. -/
def out1_3 (x0 : Vec F S5000x256 .bf16) (x1 : Vec F S256x128 .bf16) (x2 : Vec F S128 .f32) : Vec F S5000x128 .f32 :=
  View.canon [⟨r1_3, k1_pay1 (View.ld x0 r1_0) (View.ld x1 r1_1) (View.ld x2 r1_2)⟩]

/-- That one store covers the whole output buffer. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

set_option maxHeartbeats 1000000 in
/-- The body's triple: started with the three input buffers holding `x0`, `x1`, `x2` and the output buffer holding
    anything, it ends with the inputs as they were and the output at `out1_3 x0 x1 x2`. -/
theorem sound_kernel1 (c : Dev nD) (E : Set ℕ) (i : grid1.Coords) (arg1 : Memref sig .tc .vmem S5000x256 .bf16) (harg1 : arg1.IsWhole) (arg2 : Memref sig .tc .vmem S256x128 .bf16) (harg2 : arg2.IsWhole) (arg3 : Memref sig .tc .vmem S128 .f32) (harg3 : arg3.IsWhole) (arg4 : Memref sig .tc .vmem S5000x128 .f32) (harg4 : arg4.IsWhole)
    (x0 : Vec F S5000x256 .bf16) (x1 : Vec F S256x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: its arrays as found in `V`; after the body at point `t` every input
    buffer still holds its block and the output buffer holds `out1_3` of the three blocks; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline hands the body at point `t`: each window's current staging buffer at its contents before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what the body hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program: a stretch of host operations (the two row gathers, the concatenation), the first region
  (`relu (msg · W1 + b1)` row block by row block), a second stretch (the two scatter-adds, the quotient, the
  concatenation), and the second region (`relu (cat · W2 + b2)`). This module follows every unscoped buffer through
  those four items: `W0` is the launch memory, `W1` and `W3` apply a host stretch to what is before it, `W2` and
  `W4` replace a region's arrays by what its write-backs leave. The run theorem says every weakly fair execution
  terminates with each unscoped buffer at `W4`; a region changes nothing but its output array, so the seven
  arguments end as launched.
-/
import proofs.«143740_j81956565942353_1_alg».proof.Proof.IdealBody
import proofs.«143740_j81956565942353_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the five boundaries -/

/-- At launch. -/
abbrev W0 : Dev nD → Valuation τ sig (Elt F) := fun c b => m ((c : Dev nD), b)
/-- After the first host stretch: what region 0 finds. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch: what region 1 finds. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-! ## A region changes its output array only -/

/-- Region 0 leaves every buffer but its output `main_v23` as it found it: an input array is never written back. -/
theorem W2_keep (c : Dev nD) (b : Ref sig .tc) (hb : b ≠ main_v23) :
    W2 m c (Proc.devRef .tc b) = W1 m c (Proc.devRef .tc b) := by
  by_cases h : ∃ w, Pipeline.arrRef spec0 w = b
  · obtain ⟨w, rfl⟩ := h
    rw [W2_arr]
    match w, hb with
    | ⟨0, _⟩, _ => exact ((dat0 (V1 m) c).arrAt_in 0 rfl _).trans (A_eq0 (V1 m) c 0)
    | ⟨1, _⟩, _ => exact ((dat0 (V1 m) c).arrAt_in 1 rfl _).trans (A_eq0 (V1 m) c 1)
    | ⟨2, _⟩, _ => exact ((dat0 (V1 m) c).arrAt_in 2 rfl _).trans (A_eq0 (V1 m) c 2)
    | ⟨3, _⟩, hb => exact absurd rfl hb
  · exact W2_of_ne m c b fun w e => h ⟨w, e⟩

/-- Region 1 leaves every buffer but its output `main_v39` as it found it. -/
theorem W4_keep (c : Dev nD) (b : Ref sig .tc) (hb : b ≠ main_v39) :
    W4 m c (Proc.devRef .tc b) = W3 m c (Proc.devRef .tc b) := by
  by_cases h : ∃ w, Pipeline.arrRef spec1 w = b
  · obtain ⟨w, rfl⟩ := h
    rw [W4_arr]
    match w, hb with
    | ⟨0, _⟩, _ => exact ((dat1 (V3 m) c).arrAt_in 0 rfl _).trans (A_eq1 (V3 m) c 0)
    | ⟨1, _⟩, _ => exact ((dat1 (V3 m) c).arrAt_in 1 rfl _).trans (A_eq1 (V3 m) c 1)
    | ⟨2, _⟩, _ => exact ((dat1 (V3 m) c).arrAt_in 2 rfl _).trans (A_eq1 (V3 m) c 2)
    | ⟨3, _⟩, hb => exact absurd rfl hb
  · exact W4_of_ne m c b fun w e => h ⟨w, e⟩

/-- A buffer that no host operation writes and that is neither region's output ends as launched. -/
theorem W4_launch (c : Dev nD) (b : Ref sig .tc) (h0 : b ∉ hostOps0_W) (h1 : b ∉ hostOps1_W)
    (h23 : b ≠ main_v23) (h39 : b ≠ main_v39) : W4 m c (Proc.devRef .tc b) = m ((c : Thread nD τ).loc b) :=
  (W4_keep m c b h39).trans <| (StableHlo.after_of_writes_sub hostOps1 _ hostOps1_writes h1).trans <|
    (W2_keep m c b h23).trans <| (StableHlo.after_of_writes_sub hostOps0 _ hostOps0_writes h0).trans rfl

/-! ## The proof data of both pipelines, the thread state, the segments -/

/-- Each pipeline's proof data at the contents its region finds. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What a core carries beside its buffers through every item: its generator register at some state, and owing nothing. -/
abbrev R (c : Dev nD) : sProp 𝕄 := iprop((∃ r, prngReg c r) ∗ ∃ W, owes (c : Thread nD τ) (0 : CellTallies nD τ sig Unit) W)
/-- The last thread state, apart from the core owing nothing. -/
abbrev Tₙ (c : Dev nD) : sProp 𝕄 := iprop(StableHlo.held (c : Thread nD τ) (Pipeline.ucRefs τ sig) (W4 m c) ∗ ∃ r, prngReg c r)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Region 0 as a segment: entered with every unscoped buffer at `W1`, left with them at `W2`. At entry the
    region's four arrays are taken out of the unscoped buffers and the generator register goes into the body's
    invariant; at exit the arrays come back at what the write-backs left and the register comes out again. The
    kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Region 1 as a segment: entered with every unscoped buffer at `W3`, left with them at `W4`. At entry the
    region's four arrays are taken out of the unscoped buffers and the generator register goes into the body's
    invariant; at exit the arrays come back at what the write-backs left and the register comes out again. The
    kernel has no semaphore of its own and owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (fun w => (W4_arr m c w).symm)
      (fun b hb => W4_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) :=
  main_segs adm (pdats m) () 𝒱₀ L lv _ _ (reg0 m) (reg1 m) rfl rfl c

/-! ## The run -/

set_option backward.isDefEq.respectTransparency.types false in
/-- Every weakly fair execution of @main from memory `m` terminates, nothing faulting, and in every final state each
    unscoped buffer of each core holds `W4`. -/
theorem run_bufs (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h c => h c)

/-- An unscoped TensorCore reference is one of the buffers the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result array and the seven arguments read off: the result ends at what region 1's write-backs
    leave in `main_v39`, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v39) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v39 (by decide))).trans (W4_arr m c 3),
     (h c _ (mem_uc main_arg0 (by decide))).trans (W4_launch m c main_arg0 (by decide) (by decide) (by decide) (by decide)),
     (h c _ (mem_uc main_arg1 (by decide))).trans (W4_launch m c main_arg1 (by decide) (by decide) (by decide) (by decide)),
     (h c _ (mem_uc main_arg2 (by decide))).trans (W4_launch m c main_arg2 (by decide) (by decide) (by decide) (by decide)),
     (h c _ (mem_uc main_arg3 (by decide))).trans (W4_launch m c main_arg3 (by decide) (by decide) (by decide) (by decide)),
     (h c _ (mem_uc main_arg4 (by decide))).trans (W4_launch m c main_arg4 (by decide) (by decide) (by decide) (by decide)),
     (h c _ (mem_uc main_arg5 (by decide))).trans (W4_launch m c main_arg5 (by decide) (by decide) (by decide) (by decide)),
     (h c _ (mem_uc main_arg6 (by decide))).trans (W4_launch m c main_arg6 (by decide) (by decide) (by decide) (by decide))⟩)
    (run_bufs m ρ)

/-- The frame: the program runs to the end, nothing faulting, and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Hand

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibLinRelu.lean ====
/-
  A dense layer with a rectifier over the extended reals, for any extents: `linRelu A B b` is the [M,N] array whose
  entry (a, q) is `max (∑ c, A (a, c) · B (c, q) + b q) 0`. Two ways of computing it are shown to be it: the accelerator
  body (an [M,K] by [K,N] matrix product into a zero accumulator, the bias vector laid out as one row and repeated
  down the M rows, the maximum with a splat of zero) and the host line (a `dot_general` contracting the last axis of
  the left operand with the first of the right, the bias broadcast to a row and then to the array, the maximum with a
  broadcast zero). Also: a row block of `linRelu` is `linRelu` of the row block of `A`.
-/
import Idealize.ShloMosaic.PureOps.Ideal.Laws
import Idealize.ShloMosaic.Lib.ValueIdx
import Idealize.ShloMosaic.Lib.ValueLayout
import Idealize.ShloMosaic.Lib.Pipeline.Value
import proofs.«143740_j81956565942353_1_alg».proof.Proof.LibDot2

noncomputable section

open scoped BigOperators

namespace Cert.LibLinRelu

open Idealize.ShloMosaic Idealize.ShloMosaic.ValueIdx

variable {M K N : Nat}

/-- Entry (a, q) of the layer: `max (∑ c, A (a, c) · B (c, q) + b q) 0`, the zero written as the f32 zero word's value. -/
def linRelu (A : (⟨2, ![M, K]⟩ : Shape).Idx → EReal) (B : (⟨2, ![K, N]⟩ : Shape).Idx → EReal)
    (b : (⟨1, ![N]⟩ : Shape).Idx → EReal) : (⟨2, ![M, N]⟩ : Shape).Idx → EReal :=
  fun i => max ((∑ c : Fin K, A (ix2 (i 0) c) * B (ix2 c (i 1))) + b (ix1 (i 1))) (Ideal.ofBits .f32 0x00000000#32)

theorem linRelu_ix2 (A : (⟨2, ![M, K]⟩ : Shape).Idx → EReal) (B : (⟨2, ![K, N]⟩ : Shape).Idx → EReal)
    (b : (⟨1, ![N]⟩ : Shape).Idx → EReal) (a : Fin M) (q : Fin N) :
    linRelu A B b (ix2 a q) = max ((∑ c : Fin K, A (ix2 a c) * B (ix2 c q)) + b (ix1 q)) (Ideal.ofBits .f32 0x00000000#32) := rfl

/-- The accelerator body computes the layer: the same-shape casts are the identity, the matrix product into zeros
    is the sum, the bias row repeated down the rows reads the bias at the column. -/
theorem body_eq {φ₁ φ₂ : FTy} (w : DotDims.WF ⟨2, ![M, K]⟩ ⟨2, ![K, N]⟩ ⟨2, ![M, N]⟩ [1] [0] [0] [1] [] [])
    (prec : Option ContractPrecision)
    (hA : (⟨2, ![M, K]⟩ : Shape).ShapeCasts ⟨2, ![M, K]⟩) (hB : (⟨2, ![K, N]⟩ : Shape).ShapeCasts ⟨2, ![K, N]⟩)
    (h1 : (⟨1, ![N]⟩ : Shape).ShapeCasts ⟨2, ![1, N]⟩) (hb : (⟨2, ![1, N]⟩ : Shape).Broadcasts ⟨2, ![M, N]⟩)
    (A : FVec Ideal ⟨2, ![M, K]⟩ φ₁) (B : FVec Ideal ⟨2, ![K, N]⟩ φ₂) (b : FVec Ideal ⟨1, ![N]⟩ .f32) :
    maximumf (addf (matmul (⟨[1], [0], [0], [1], [], [], w⟩ : DotDims ⟨2, ![M, K]⟩ ⟨2, ![K, N]⟩ ⟨2, ![M, N]⟩) prec
          (shapeCast ⟨2, ![M, K]⟩ A hA) (shapeCast ⟨2, ![K, N]⟩ B hB) (constant ⟨2, ![M, N]⟩ .f32 0x00000000#32))
        (broadcastTo ⟨2, ![M, N]⟩ (shapeCast ⟨2, ![1, N]⟩ b h1) hb))
      (broadcast ⟨2, ![M, N]⟩ (Scalar.ofBits (F := Ideal) .f32 0x00000000#32))
      = linRelu A B b := by
  funext i
  obtain ⟨a, q, rfl⟩ : ∃ (a : Fin M) (q : Fin N), i = ix2 a q := ⟨i 0, i 1, eq_ix2 i⟩
  rw [linRelu_ix2, shapeCast_self, shapeCast_self, maximumf_apply, addf_apply, LibDot2.matmul_zero_apply,
    broadcastTo_1b_ab_apply, shapeCast_a_1a_apply]
  rfl

end Cert.LibLinRelu

end
-- ==== Proof.IdealValue.lean ====
/-
  The values at the extended reals. Each region's body stores, over its row block, the dense layer `linRelu` of the
  row block of `A`, the whole of `B` and the bias; since row `r` of the layer depends on row `r` of `A` only, what
  grid point `t` writes back is block `t` of the layer of the WHOLE arrays, and the blocks tile the rows, so after
  the region the output array is that layer. Stated for any contents `V` the region may find.
-/
import proofs.«143740_j81956565942353_1_alg».proof.Proof.IdealBody
import proofs.«143740_j81956565942353_1_alg».proof.Proof.LibLinRelu

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibLinRelu

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 0: what its output array ends holding -/

/-- The body's payload is the layer of its three loads. -/
theorem pay0_eq (x0 : Vec Ideal S8000x288 .bf16) (x1 : Vec Ideal S288x128 .bf16) (x2 : Vec Ideal S128 .f32) :
    k0_pay1 (F := Ideal) x0 x1 x2 = linRelu x0 x1 x2 := by
  unfold k0_pay1
  exact body_eq _ none _ _ _ _ x0 x1 x2

/-- The index maps over the grid: the row block of `A` and of the output move with the point, `B` and the bias stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem t_lt0 (t : Fin cfg0.N) : t.val < 100 := lt_of_lt_of_eq t.isLt N_0

/-- Row `p` of point `t`'s block is row `8000·t + p` of the array. -/
abbrev row0 (t : Fin cfg0.N) (p : Fin 8000) : Fin 800000 :=
  ⟨t.val * 8000 + p.val, by have := t_lt0 t; have := p.isLt; omega⟩

/-- The row block of `A` at point `t`, read at (p, k): the array's entry (8000·t + p, k). -/
theorem blkA0 (c : Dev nD) (t : Fin cfg0.N) (p : Fin 8000) (k : Fin 288) :
    iblk0 V c 0 t (ix2 p k) = V c main_v21 (ix2 (row0 t p) k) := by
  obtain ⟨e0, e1, -⟩ := idx_facts0 t
  show V c main_v21 (((cfg0.win 0).blk t).view.emb (ix2 p k)) = _
  refine congrArg (V c main_v21) (funext fun a => Fin.ext ?_)
  match a with
  | ⟨0, _⟩ => show win0_0.index t (0 : Fin 2) * 8000 + 1 * p.val = t.val * 8000 + p.val; omega
  | ⟨1, _⟩ => show win0_0.index t (1 : Fin 2) * 288 + 1 * k.val = k.val; omega

/-- The block of `B` at any point is the whole of `B`. -/
theorem blkB0 (c : Dev nD) (t : Fin cfg0.N) (k : Fin 288) (q : Fin 128) :
    iblk0 V c 1 t (ix2 k q) = V c main_v22 (ix2 k q) := by
  obtain ⟨-, -, e2, e3, -⟩ := idx_facts0 t
  show V c main_v22 (((cfg0.win 1).blk t).view.emb (ix2 k q)) = _
  refine congrArg (V c main_v22) (funext fun a => Fin.ext ?_)
  match a with
  | ⟨0, _⟩ => show win0_1.index t (0 : Fin 2) * 288 + 1 * k.val = k.val; omega
  | ⟨1, _⟩ => show win0_1.index t (1 : Fin 2) * 128 + 1 * q.val = q.val; omega

/-- The block of the bias at any point is the whole bias. -/
theorem blkb0 (c : Dev nD) (t : Fin cfg0.N) (q : Fin 128) :
    iblk0 V c 2 t (ix1 q) = V c main_arg3 (ix1 q) := by
  obtain ⟨-, -, -, -, e4, -⟩ := idx_facts0 t
  show V c main_arg3 (((cfg0.win 2).blk t).view.emb (ix1 q)) = _
  refine congrArg (V c main_arg3) (funext fun a => Fin.ext ?_)
  match a with
  | ⟨0, _⟩ => show win0_2.index t (0 : Fin 1) * 128 + 1 * q.val = q.val; omega

/-- Entry (p, q) of the output's block at point `t` sits at (8000·t + p, q) of the output array. -/
theorem embOut0 (t : Fin cfg0.N) (p : Fin 8000) (q : Fin 128) :
    ((cfg0.win 3).blk t).view.emb (ix2 p q) = ix2 (row0 t p) q := by
  obtain ⟨-, -, -, -, -, e5, e6⟩ := idx_facts0 t
  refine funext fun a => Fin.ext ?_
  match a with
  | ⟨0, _⟩ => show win0_3.index t (0 : Fin 2) * 8000 + 1 * p.val = t.val * 8000 + p.val; omega
  | ⟨1, _⟩ => show win0_3.index t (1 : Fin 2) * 128 + 1 * q.val = q.val; omega

/-- What point `t` writes back is block `t` of the layer of the whole arrays the region found: a row of the layer
    depends only on the same row of `A`. -/
theorem flushed0_eq (c : Dev nD) (t : Fin cfg0.N) :
    (dat0 (F := Ideal) V c).flushed 3 t
      = ((cfg0.win 3).blk t).view.read (Elt Ideal) (linRelu (V c main_v21) (V c main_v22) (V c main_arg3)) := by
  show (cfg0.win 3).cut (grid0.coords t) ((dat0 V c).after 3 t) = _
  rw [after0_3]
  unfold out0_3
  rw [View.canon_unit_zero hz2]
  simp only [View.ld_unit_zero (S := S8000x288) hz2, View.ld_unit_zero (S := S288x128) hz2, View.ld_unit_zero (S := S128) hz1]
  rw [pay0_eq]
  funext j
  obtain ⟨p, q, rfl⟩ : ∃ (p : Fin 8000) (q : Fin 128), j = ix2 p q := ⟨j 0, j 1, eq_ix2 j⟩
  show linRelu (iblk0 V c 0 t) (iblk0 V c 1 t) (iblk0 V c 2 t) (ix2 p q)
    = linRelu (V c main_v21) (V c main_v22) (V c main_arg3) (((cfg0.win 3).blk t).view.emb (ix2 p q))
  rw [embOut0 t p q, linRelu_ix2, linRelu_ix2]
  simp only [blkA0 V c t, blkB0 V c t, blkb0 V c t]

/-- An index of the output array lies in point `t`'s block iff each coordinate lies in the block's range. -/
theorem mem_blk0 (t : Fin cfg0.N) (i : S800000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v23).slice (win0_3.rect t)).set ↔ _
  rw [View.set_slice_whole, Rect.mem_set_unit]
  exact Iff.rfl

/-- Every row of the output array is in the block of the point `row / 8000`, which writes it back. -/
theorem cover0 (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : cfg0.N = 100 := N_0
  have ht : (i 0).val / 8000 < cfg0.N := by rw [hN]; omega
  obtain ⟨-, -, -, -, -, e5, e6⟩ := idx_facts0 ⟨(i 0).val / 8000, ht⟩
  refine ⟨⟨(i 0).val / 8000, ht⟩, flush0_3 _, ?_⟩
  rw [mem_blk0]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    rw [e5]; show (i 0).val / 8000 * 8000 ≤ (i 0).val ∧ (i 0).val < (i 0).val / 8000 * 8000 + 8000; omega
  | ⟨1, _⟩ =>
    show win0_3.index ⟨(i 0).val / 8000, ht⟩ (1 : Fin 2) * 128 ≤ (i 1).val ∧ (i 1).val < win0_3.index ⟨(i 0).val / 8000, ht⟩ (1 : Fin 2) * 128 + 128
    rw [e6]; omega

/-- After the region its output array holds the layer of the arrays the region found. -/
theorem final0 (c : Dev nD) :
    (dat0 (F := Ideal) V c).arrAt 3 cfg0.N = linRelu (V c main_v21) (V c main_v22) (V c main_arg3) :=
  (dat0 V c).arrAt_eq_of_cover 3 _ (fun t _ => flushed0_eq V c t) (cover0)

/-! ## Region 1: what its output array ends holding -/

/-- The body's payload is the layer of its three loads. -/
theorem pay1_eq (x0 : Vec Ideal S5000x256 .bf16) (x1 : Vec Ideal S256x128 .bf16) (x2 : Vec Ideal S128 .f32) :
    k1_pay1 (F := Ideal) x0 x1 x2 = linRelu x0 x1 x2 := by
  unfold k1_pay1
  exact body_eq _ none _ _ _ _ x0 x1 x2

/-- The index maps over the grid: the row block of `A` and of the output move with the point, `B` and the bias stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem t_lt1 (t : Fin cfg1.N) : t.val < 10 := lt_of_lt_of_eq t.isLt N_1

/-- Row `p` of point `t`'s block is row `5000·t + p` of the array. -/
abbrev row1 (t : Fin cfg1.N) (p : Fin 5000) : Fin 50000 :=
  ⟨t.val * 5000 + p.val, by have := t_lt1 t; have := p.isLt; omega⟩

/-- The row block of `A` at point `t`, read at (p, k): the array's entry (5000·t + p, k). -/
theorem blkA1 (c : Dev nD) (t : Fin cfg1.N) (p : Fin 5000) (k : Fin 256) :
    iblk1 V c 0 t (ix2 p k) = V c main_v37 (ix2 (row1 t p) k) := by
  obtain ⟨e0, e1, -⟩ := idx_facts1 t
  show V c main_v37 (((cfg1.win 0).blk t).view.emb (ix2 p k)) = _
  refine congrArg (V c main_v37) (funext fun a => Fin.ext ?_)
  match a with
  | ⟨0, _⟩ => show win1_0.index t (0 : Fin 2) * 5000 + 1 * p.val = t.val * 5000 + p.val; omega
  | ⟨1, _⟩ => show win1_0.index t (1 : Fin 2) * 256 + 1 * k.val = k.val; omega

/-- The block of `B` at any point is the whole of `B`. -/
theorem blkB1 (c : Dev nD) (t : Fin cfg1.N) (k : Fin 256) (q : Fin 128) :
    iblk1 V c 1 t (ix2 k q) = V c main_v38 (ix2 k q) := by
  obtain ⟨-, -, e2, e3, -⟩ := idx_facts1 t
  show V c main_v38 (((cfg1.win 1).blk t).view.emb (ix2 k q)) = _
  refine congrArg (V c main_v38) (funext fun a => Fin.ext ?_)
  match a with
  | ⟨0, _⟩ => show win1_1.index t (0 : Fin 2) * 256 + 1 * k.val = k.val; omega
  | ⟨1, _⟩ => show win1_1.index t (1 : Fin 2) * 128 + 1 * q.val = q.val; omega

/-- The block of the bias at any point is the whole bias. -/
theorem blkb1 (c : Dev nD) (t : Fin cfg1.N) (q : Fin 128) :
    iblk1 V c 2 t (ix1 q) = V c main_arg5 (ix1 q) := by
  obtain ⟨-, -, -, -, e4, -⟩ := idx_facts1 t
  show V c main_arg5 (((cfg1.win 2).blk t).view.emb (ix1 q)) = _
  refine congrArg (V c main_arg5) (funext fun a => Fin.ext ?_)
  match a with
  | ⟨0, _⟩ => show win1_2.index t (0 : Fin 1) * 128 + 1 * q.val = q.val; omega

/-- Entry (p, q) of the output's block at point `t` sits at (5000·t + p, q) of the output array. -/
theorem embOut1 (t : Fin cfg1.N) (p : Fin 5000) (q : Fin 128) :
    ((cfg1.win 3).blk t).view.emb (ix2 p q) = ix2 (row1 t p) q := by
  obtain ⟨-, -, -, -, -, e5, e6⟩ := idx_facts1 t
  refine funext fun a => Fin.ext ?_
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point `t` writes back is block `t` of the layer of the whole arrays the region found: a row of the layer
    depends only on the same row of `A`. -/
theorem flushed1_eq (c : Dev nD) (t : Fin cfg1.N) :
    (dat1 (F := Ideal) V c).flushed 3 t
      = ((cfg1.win 3).blk t).view.read (Elt Ideal) (linRelu (V c main_v37) (V c main_v38) (V c main_arg5)) := by
  show (cfg1.win 3).cut (grid1.coords t) ((dat1 V c).after 3 t) = _
  rw [after1_3]
  unfold out1_3
  rw [View.canon_unit_zero hz2]
  simp only [View.ld_unit_zero (S := S5000x256) hz2, View.ld_unit_zero (S := S256x128) hz2, View.ld_unit_zero (S := S128) hz1]
  rw [pay1_eq]
  funext j
  obtain ⟨p, q, rfl⟩ : ∃ (p : Fin 5000) (q : Fin 128), j = ix2 p q := ⟨j 0, j 1, eq_ix2 j⟩
  show linRelu (iblk1 V c 0 t) (iblk1 V c 1 t) (iblk1 V c 2 t) (ix2 p q)
    = linRelu (V c main_v37) (V c main_v38) (V c main_arg5) (((cfg1.win 3).blk t).view.emb (ix2 p q))
  rw [embOut1 t p q, linRelu_ix2, linRelu_ix2]
  simp only [blkA1 V c t, blkB1 V c t, blkb1 V c t]

/-- An index of the output array lies in point `t`'s block iff each coordinate lies in the block's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v39).slice (win1_3.rect t)).set ↔ _
  rw [View.set_slice_whole, Rect.mem_set_unit]
  exact Iff.rfl

/-- Every row of the output array is in the block of the point `row / 5000`, which writes it back. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, e5, e6⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e6]; omega

/-- After the region its output array holds the layer of the arrays the region found. -/
theorem final1 (c : Dev nD) :
    (dat1 (F := Ideal) V c).arrAt 3 cfg1.N = linRelu (V c main_v37) (V c main_v38) (V c main_arg5) :=
  (dat1 V c).arrAt_eq_of_cover 3 _ (fun t _ => flushed1_eq V c t) (cover1)

end Cert.KernelIdeal.Hand

end
-- ==== Proof.RefLayers.lean ====
/-
  The reference's two dense layers, read index by index: its first rectified line is the layer `linRelu` of the
  concatenated edge messages, the first weight matrix and the first bias; its result is `linRelu` of the concatenated
  node features, the second weight matrix and the second bias. Each is the host `dot_general` as a sum over the
  contracted coordinate, the bias broadcast to a row and then down the rows, and the maximum with a broadcast zero.
-/
import proofs.«143740_j81956565942353_1_alg».proof.Proof.Gen.ReferenceIdeal.Read
import proofs.«143740_j81956565942353_1_alg».proof.Proof.LibLinRelu

noncomputable section

namespace Cert.ReferenceIdeal.RefValue

open Cert.ReferenceIdeal Cert.ReferenceIdeal.Gen Cert.ReferenceIdeal.Read
open Idealize.ShloMosaic Idealize.ShloMosaic.ValueIdx Cert.LibLinRelu

/-- The edge layer: `relu (msg · W1 + b1)` is `linRelu` of the message array, `W1` and `b1`. -/
theorem layer1 (x0 : (⟨S50000x128, .f32⟩ : BufTy).Contents (Elt Ideal)) (x1 : (⟨S800000x32, .f32⟩ : BufTy).Contents (Elt Ideal))
    (x2 : (⟨S288x128, .f32⟩ : BufTy).Contents (Elt Ideal)) (x3 : (⟨S128, .f32⟩ : BufTy).Contents (Elt Ideal))
    (x6 : (⟨S2x800000, .i32⟩ : BufTy).Contents (Elt Ideal)) :
    val_main_v23 (F := Ideal) x0 x1 x2 x3 x6 = linRelu (val_main_v18 (F := Ideal) x0 x1 x6) x2 x3 := by
  funext i
  obtain ⟨a, q, rfl⟩ : ∃ (a : Fin 800000) (q : Fin 128), i = ix2 a q := ⟨i 0, i 1, eq_ix2 i⟩
  have el : ∀ k : Fin 288, lidx_main_v19 (ix2 a q) k = ix2 a k := fun k => funext fun d => Fin.ext (by
    match d with | ⟨0, _⟩ => rfl | ⟨1, _⟩ => rfl)
  have er : ∀ k : Fin 288, ridx_main_v19 (ix2 a q) k = ix2 k q := fun k => funext fun d => Fin.ext (by
    match d with | ⟨0, _⟩ => rfl | ⟨1, _⟩ => rfl)
  have eb : idx_main_v20 (idx_main_v21 (ix2 a q)) = ix1 q := funext fun d => Fin.ext (by
    match d with | ⟨0, _⟩ => rfl)
  rw [val_main_v23_apply, val_main_v22_apply, val_main_v19_apply, val_main_v21_apply, val_main_v20_apply,
    val_main_call0_v0_apply, val_main_call0_cst_apply, linRelu_ix2, eb]
  simp only [el, er]
  rfl

/-- The node layer: `relu (cat · W2 + b2)` is `linRelu` of the concatenated node features, `W2` and `b2`. -/
theorem layer2 (x0 : (⟨S50000x128, .f32⟩ : BufTy).Contents (Elt Ideal)) (x1 : (⟨S800000x32, .f32⟩ : BufTy).Contents (Elt Ideal))
    (x2 : (⟨S288x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal))
    (x6 : (⟨S2x800000, .i32⟩ : BufTy).Contents (Elt Ideal)) :
    val_main_v41 (F := Ideal) x0 x1 x2 x3 x4 x5 x6 = linRelu (val_main_v36 (F := Ideal) x0 x1 x2 x3 x6) x4 x5 := by
  funext i
  obtain ⟨a, q, rfl⟩ : ∃ (a : Fin 50000) (q : Fin 128), i = ix2 a q := ⟨i 0, i 1, eq_ix2 i⟩
  have el : ∀ k : Fin 256, lidx_main_v37 (ix2 a q) k = ix2 a k := fun k => funext fun d => Fin.ext (by
    match d with | ⟨0, _⟩ => rfl | ⟨1, _⟩ => rfl)
  have er : ∀ k : Fin 256, ridx_main_v37 (ix2 a q) k = ix2 k q := fun k => funext fun d => Fin.ext (by
    match d with | ⟨0, _⟩ => rfl | ⟨1, _⟩ => rfl)
  have eb : idx_main_v38 (idx_main_v39 (ix2 a q)) = ix1 q := funext fun d => Fin.ext (by
    match d with | ⟨0, _⟩ => rfl)
  rw [val_main_v41_apply, val_main_v40_apply, val_main_v37_apply, val_main_v39_apply, val_main_v38_apply,
    val_main_call1_v0_apply, val_main_call1_cst_apply, linRelu_ix2, eb]
  simp only [el, er]
  rfl

end Cert.ReferenceIdeal.RefValue

end
-- ==== Proof.IdealGlue.lean ====
/-
  The two programs compute one function of the arguments. On the kernel's side the first host stretch leaves, in the
  message array the first region reads, the reference's own concatenation of the two gathered copies of `x` and the
  edge attributes (rounding to the narrower float format is the identity over the extended reals), so the first
  region's output is the reference's first rectified layer; the second stretch then applies to it the reference's own
  scatter-adds, quotient and concatenation, so the second region's output is the reference's result.
-/
import proofs.«143740_j81956565942353_1_alg».proof.Proof.IdealRun
import proofs.«143740_j81956565942353_1_alg».proof.Proof.IdealValue
import proofs.«143740_j81956565942353_1_alg».proof.Proof.RefLayers

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo
open Cert.LibLinRelu

variable (m : (ℓ : Loc nD τ sig) → Buf (Elt Ideal) ℓ) (c : Dev nD)

/-- The argument arrays as launched, by name. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-! ## What the first region finds -/

/-- The message array: the two gathered copies of `x` and the edge attributes side by side, as the reference builds it. -/
theorem V1_msg : V1 m c main_v21 = Cert.ReferenceIdeal.Read.val_main_v18 (F := Ideal) (a0 m c) (a1 m c) (a6 m c) := by
  show StableHlo.after hostOps0 (W0 m c) (Proc.devRef .tc main_v21) = _
  after_results
  rfl

/-- The first weight matrix, unchanged by the change of format. -/
theorem V1_w1 : V1 m c main_v22 = a2 m c := by
  show StableHlo.after hostOps0 (W0 m c) (Proc.devRef .tc main_v22) = _
  after_results
  rfl

/-- The first bias is an argument no host operation writes. -/
theorem V1_b1 : V1 m c main_arg3 = a3 m c :=
  StableHlo.after_of_writes_sub hostOps0 _ hostOps0_writes (by decide)

/-- After the first region its output holds the reference's first rectified layer. -/
theorem W2_layer1 : W2 m c (Proc.devRef .tc main_v23)
    = Cert.ReferenceIdeal.Read.val_main_v23 (F := Ideal) (a0 m c) (a1 m c) (a2 m c) (a3 m c) (a6 m c) := by
  rw [Cert.ReferenceIdeal.RefValue.layer1]
  refine (W2_arr m c 3).trans ?_
  rw [final0 (V1 m) c, V1_msg, V1_w1, V1_b1]

end Cert.KernelIdeal.Hand

/-! ## What the second region finds, and the result -/

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo
open Cert.LibLinRelu

variable (m : (ℓ : Loc nD τ sig) → Buf (Elt Ideal) ℓ) (c : Dev nD)

/-- A buffer the first stretch does not write and that is not the first region's output still holds, after that
    region, what the launch put there. -/
theorem W2_launch (b : Ref sig .tc) (h0 : b ∉ hostOps0_W) (h23 : b ≠ main_v23) :
    W2 m c (Proc.devRef .tc b) = m ((c : Thread nD τ).loc b) :=
  (W2_keep m c b h23).trans <| (StableHlo.after_of_writes_sub hostOps0 _ hostOps0_writes h0).trans rfl

/-- The destination column of the edges, as the reference slices it out of the index array. -/
theorem W2_col : W2 m c (Proc.devRef .tc main_v3) = Cert.ReferenceIdeal.Read.val_main_v3 (F := Ideal) (a6 m c) := by
  refine (W2_keep m c main_v3 (by decide)).trans ?_
  show StableHlo.after hostOps0 (W0 m c) (Proc.devRef .tc main_v3) = _
  after_results
  rfl

/-- The concatenated node features the second region reads: `x` beside the scatter-mean of the first layer, as the
    reference builds it. -/
theorem V3_cat : V3 m c main_v37
    = Cert.ReferenceIdeal.Read.val_main_v36 (F := Ideal) (a0 m c) (a1 m c) (a2 m c) (a3 m c) (a6 m c) := by
  show StableHlo.after hostOps1 (W2 m c) (Proc.devRef .tc main_v37) = _
  after_results
  rw [W2_layer1 m c, W2_col m c, W2_launch m c main_arg0 (by decide) (by decide)]
  rfl

/-- The second weight matrix, unchanged by the change of format. -/
theorem V3_w2 : V3 m c main_v38 = a4 m c := by
  show StableHlo.after hostOps1 (W2 m c) (Proc.devRef .tc main_v38) = _
  after_results
  rw [W2_launch m c main_arg4 (by decide) (by decide)]
  rfl

/-- The second bias is an argument nothing writes. -/
theorem V3_b2 : V3 m c main_arg5 = a5 m c :=
  (StableHlo.after_of_writes_sub hostOps1 _ hostOps1_writes (by decide)).trans
    (W2_launch m c main_arg5 (by decide) (by decide))

/-- THE RESULT: what the second region's write-backs leave in the result array is the reference's result, as a
    function of the arguments. -/
theorem result_eq : (dat1 (F := Ideal) (V3 m) c).arrAt 3 cfg1.N
    = Cert.ReferenceIdeal.Read.val_main_v41 (F := Ideal) (a0 m c) (a1 m c) (a2 m c) (a3 m c) (a4 m c) (a5 m c) (a6 m c) := by
  rw [Cert.ReferenceIdeal.RefValue.layer2, final1 (V3 m) c, V3_cat, V3_w2, V3_b2]

end Cert.KernelIdeal.Hand

end
-- ==== Proof.lean ====
/-
  A graph message-passing layer: for every edge, `relu ([x[row] | x[col] | edge_attr] · W1 + b1)`; the mean of those
  messages over each destination node (a sum scattered by `col`, divided by the larger of the count and one); then for
  every node `relu ([x | mean] · W2 + b2)`. The kernel computes the two dense layers in two pallas regions, row
  block by row block, on operands rounded to a narrower float format; the reference computes them as two whole
  `dot_general`s. Over the extended reals the rounding is the identity, a row block of a dense layer is the dense
  layer of the row block, and the gathers, scatter-adds, quotient and concatenations between the layers are the same
  operations on both sides: so the two results are one function of the arguments. No algebraic law beyond the
  definition of a matrix product as a sum is used, and the finiteness of the inputs is never needed.
  The frames: each program runs to the end without a fault and leaves its seven argument arrays as launched — the host
  operations write only their own result buffers, and a region writes back only its output array.
  The ideal pass rewrote nothing, so there is nothing to preserve.
-/
import proofs.«143740_j81956565942353_1_alg».proof.Defs
import proofs.«143740_j81956565942353_1_alg».proof.Proof.Gen.Kernel
import proofs.«143740_j81956565942353_1_alg».proof.Proof.Gen.KernelIdeal
import proofs.«143740_j81956565942353_1_alg».proof.Proof.Gen.ReferenceIdeal
import proofs.«143740_j81956565942353_1_alg».proof.Proof.Gen.Pre_finite_inputs
import proofs.«143740_j81956565942353_1_alg».proof.Proof.Gen.ReferenceIdeal.Run
import proofs.«143740_j81956565942353_1_alg».proof.Proof.Gen.ReferenceIdeal.Read
import proofs.«143740_j81956565942353_1_alg».proof.Proof.BitsRun
import proofs.«143740_j81956565942353_1_alg».proof.Proof.IdealRun
import proofs.«143740_j81956565942353_1_alg».proof.Proof.IdealGlue

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals. -/
theorem preserves : Cert.preserves_Kernel_KernelIdeal := trivial

/-- From memories that agree on the arguments both programs end with the same result array: the kernel's second
    region leaves the reference's result (`result_eq`), as a function of the arguments. -/
theorem algebraic : Cert.algebraic_KernelIdeal_ReferenceIdeal := by
  intro m ρ m' ρ' _ hagree
  refine ⟨fun c => (Cert.KernelIdeal.Hand.dat1 (F := Ideal) (Cert.KernelIdeal.Hand.V3 m) c).arrAt 3 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
